-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x256 : Shape := ⟨3, ![4, 512, 256]⟩
abbrev S4x64x512 : Shape := ⟨3, ![4, 64, 512]⟩
abbrev S4x64 : Shape := ⟨2, ![4, 64]⟩
abbrev S_ : Shape := ⟨0, ![]⟩

class Facts : Prop where
  bcast_S_S4x512x256 : S_.BroadcastsInDim S4x512x256 (![] : Fin 0 → Fin S4x512x256.rank)
  reducesTo_S4x512x256_S_d0_1_2 : S4x512x256.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S4x512x256 .f32) (main_arg1 : FVec F S4x64x512 .f32) (main_arg2 : FVec F S4x64 .f32) : IVec S_ 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_c : IVec S_ 1 := constantI S_ 1 1#1
  let main_v3 : IVec S_ 1 := (fun x v => Host.reduce IntOp.andi x v reducesTo_S4x512x256_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S4x64 .f32 := Host.absf main_arg2
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  main_v13
-- ==== Kernel.lean ====
abbrev S4x512x256 : Shape := ⟨3, ![4, 512, 256]⟩
abbrev S4x64x512 : Shape := ⟨3, ![4, 64, 512]⟩
abbrev S4x64 : Shape := ⟨2, ![4, 64]⟩
abbrev S4x64x256 : Shape := ⟨3, ![4, 64, 256]⟩
abbrev S1x16x512 : Shape := ⟨3, ![1, 16, 512]⟩
abbrev S1x512x256 : Shape := ⟨3, ![1, 512, 256]⟩
abbrev S1x16x256 : Shape := ⟨3, ![1, 16, 256]⟩
abbrev S16x512 : Shape := ⟨2, ![16, 512]⟩
abbrev S512x256 : Shape := ⟨2, ![512, 256]⟩
abbrev S16x512x1 : Shape := ⟨3, ![16, 512, 1]⟩
abbrev S16x512x256 : Shape := ⟨3, ![16, 512, 256]⟩
abbrev S16x256 : Shape := ⟨2, ![16, 256]⟩
abbrev S_ : Shape := ⟨0, ![]⟩
abbrev S4x64x1 : Shape := ⟨3, ![4, 64, 1]⟩

abbrev nBuf : Space → Nat
  | .hbm => 15
  | .vmem => 8
  | .smem => 0
  | _ => 0

abbrev bufTy : (tb : Table) → Fin (tcTables nBuf tb) → BufTy
  | .hbm, ⟨0, _⟩ => ⟨S4x512x256, .f32⟩
  | .hbm, ⟨1, _⟩ => ⟨S4x64x512, .f32⟩
  | .hbm, ⟨2, _⟩ => ⟨S4x64, .f32⟩
  | .hbm, ⟨3, _⟩ => ⟨S4x64x256, .f32⟩
  | .hbm, ⟨4, _⟩ => ⟨S4x64x256, .f32⟩
  | .hbm, ⟨5, _⟩ => ⟨S_, .f32⟩
  | .hbm, ⟨6, _⟩ => ⟨S4x64, .f32⟩
  | .hbm, ⟨7, _⟩ => ⟨S4x64, .i1⟩
  | .hbm, ⟨8, _⟩ => ⟨S_, .f32⟩
  | .hbm, ⟨9, _⟩ => ⟨S4x64, .f32⟩
  | .hbm, ⟨10, _⟩ => ⟨S4x64, .f32⟩
  | .hbm, ⟨11, _⟩ => ⟨S4x64x1, .f32⟩
  | .hbm, ⟨12, _⟩ => ⟨S4x64x256, .f32⟩
  | .hbm, ⟨13, _⟩ => ⟨S4x64x256, .f32⟩
  | .hbm, ⟨14, _⟩ => ⟨S4x64x512, .f32⟩
  | .local _ .vmem, ⟨0, _⟩ => ⟨S1x16x512, .f32⟩
  | .local _ .vmem, ⟨1, _⟩ => ⟨S1x16x512, .f32⟩
  | .local _ .vmem, ⟨2, _⟩ => ⟨S1x512x256, .f32⟩
  | .local _ .vmem, ⟨3, _⟩ => ⟨S1x512x256, .f32⟩
  | .local _ .vmem, ⟨4, _⟩ => ⟨S1x16x256, .f32⟩
  | .local _ .vmem, ⟨5, _⟩ => ⟨S1x16x256, .f32⟩
  | .local _ .vmem, ⟨6, _⟩ => ⟨S1x16x256, .f32⟩
  | .local _ .vmem, ⟨7, _⟩ => ⟨S1x16x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S16x512_S16x512x1 : S16x512.ShapeCasts S16x512x1
  shapeCasts_S512x256_S1x512x256 : S512x256.ShapeCasts S1x512x256
  broadcasts_S16x512x1_S16x512x256 : S16x512x1.Broadcasts S16x512x256
  broadcasts_S1x512x256_S16x512x256 : S1x512x256.Broadcasts S16x512x256
  reduces_S16x512x256_S16x256 : S16x512x256.Reduces [1] S16x256
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  shapeCasts_S16x256_S1x16x256 : S16x256.ShapeCasts S1x16x256
  bcast_S_S4x64 : S_.BroadcastsInDim S4x64 (![] : Fin 0 → Fin S4x64.rank)
  bcast_S4x64_S4x64x1_0_1 : S4x64.BroadcastsInDim S4x64x1 (![0, 1] : Fin 2 → Fin S4x64x1.rank)
  bcast_S4x64x1_S4x64x256_0_1_2 : S4x64x1.BroadcastsInDim S4x64x256 (![0, 1, 2] : Fin 3 → Fin S4x64x256.rank)
  concatenates_S4x64x256_S4x64x256_S4x64x512_d2 : Shape.Concatenates [S4x64x256, S4x64x256] S4x64x512 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S4x64x512.size a
  hwx0_0 : ∀ i : grid0.Coords, EltTy.bits .f32 = 32 ∨ (Rect.block (s := S4x64x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S4x512x256.size a
  hwx0_1 : ∀ i : grid0.Coords, EltTy.bits .f32 = 32 ∨ (Rect.block (s := S4x512x256) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256.size a ≤ S4x64x256.size a
  hwx0_2 : ∀ i : grid0.Coords, EltTy.bits .f32 = 32 ∨ (Rect.block (s := S4x64x256) S1x16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x256.size a ≤ S4x64x256.size a
  hwx0_3 : ∀ i : grid0.Coords, EltTy.bits .f32 = 32 ∨ (Rect.block (s := S4x64x256) S1x16x256.size (cc0_transform_3 i) (hinb0_3 i)).WholeWords (EltTy.packing .f32)

variable [Facts₀]

abbrev win0_0 : Pipeline.Window sig grid0 :=
  Pipeline.Window.ofSpec (Memref.whole main_arg1) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x16x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x16x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x512x256 : Shape := ⟨3, ![4, 512, 256]⟩
abbrev S4x64x512 : Shape := ⟨3, ![4, 64, 512]⟩
abbrev S4x64 : Shape := ⟨2, ![4, 64]⟩
abbrev S4x64x512x1 : Shape := ⟨4, ![4, 64, 512, 1]⟩
abbrev S4x1x512x256 : Shape := ⟨4, ![4, 1, 512, 256]⟩
abbrev S4x64x512x256 : Shape := ⟨4, ![4, 64, 512, 256]⟩
abbrev S_ : Shape := ⟨0, ![]⟩
abbrev S4x64x256 : Shape := ⟨3, ![4, 64, 256]⟩
abbrev S4x64x1 : Shape := ⟨3, ![4, 64, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x64x512, .f32⟩
  | .hbm, ⟨2, _⟩ => ⟨S4x64, .f32⟩
  | .hbm, ⟨3, _⟩ => ⟨S4x64x512x1, .f32⟩
  | .hbm, ⟨4, _⟩ => ⟨S4x1x512x256, .f32⟩
  | .hbm, ⟨5, _⟩ => ⟨S4x64x512x256, .f32⟩
  | .hbm, ⟨6, _⟩ => ⟨S4x64x512x256, .f32⟩
  | .hbm, ⟨7, _⟩ => ⟨S4x64x512x256, .f32⟩
  | .hbm, ⟨8, _⟩ => ⟨S_, .f32⟩
  | .hbm, ⟨9, _⟩ => ⟨S4x64x256, .f32⟩
  | .hbm, ⟨10, _⟩ => ⟨S_, .f32⟩
  | .hbm, ⟨11, _⟩ => ⟨S4x64, .f32⟩
  | .hbm, ⟨12, _⟩ => ⟨S4x64, .i1⟩
  | .hbm, ⟨13, _⟩ => ⟨S_, .f32⟩
  | .hbm, ⟨14, _⟩ => ⟨S4x64, .f32⟩
  | .hbm, ⟨15, _⟩ => ⟨S4x64, .f32⟩
  | .hbm, ⟨16, _⟩ => ⟨S_, .f32⟩
  | .hbm, ⟨17, _⟩ => ⟨S4x64x256, .f32⟩
  | .hbm, ⟨18, _⟩ => ⟨S4x64x1, .f32⟩
  | .hbm, ⟨19, _⟩ => ⟨S4x64x256, .f32⟩
  | .hbm, ⟨20, _⟩ => ⟨S4x64x256, .f32⟩
  | .hbm, ⟨21, _⟩ => ⟨S4x64x512, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S4x64x512_S4x64x512x1_0_1_2 : S4x64x512.BroadcastsInDim S4x64x512x1 (![0, 1, 2] : Fin 3 → Fin S4x64x512x1.rank)
  bcast_S4x512x256_S4x1x512x256_0_2_3 : S4x512x256.BroadcastsInDim S4x1x512x256 (![0, 2, 3] : Fin 3 → Fin S4x1x512x256.rank)
  bcast_S4x64x512x1_S4x64x512x256_0_1_2_3 : S4x64x512x1.BroadcastsInDim S4x64x512x256 (![0, 1, 2, 3] : Fin 4 → Fin S4x64x512x256.rank)
  bcast_S4x1x512x256_S4x64x512x256_0_1_2_3 : S4x1x512x256.BroadcastsInDim S4x64x512x256 (![0, 1, 2, 3] : Fin 4 → Fin S4x64x512x256.rank)
  reducesTo_S4x64x512x256_S4x64x256_d2 : S4x64x512x256.ReducesTo [2] S4x64x256
  h_S_ : 0 < S_.numel
  bcast_S_S4x64 : S_.BroadcastsInDim S4x64 (![] : Fin 0 → Fin S4x64.rank)
  bcast_S4x64_S4x64x1_0_1 : S4x64.BroadcastsInDim S4x64x1 (![0, 1] : Fin 2 → Fin S4x64x1.rank)
  bcast_S4x64x1_S4x64x256_0_1_2 : S4x64x1.BroadcastsInDim S4x64x256 (![0, 1, 2] : Fin 3 → Fin S4x64x256.rank)
  concatenates_S4x64x256_S4x64x256_S4x64x512_d2 : Shape.Concatenates [S4x64x256, S4x64x256] S4x64x512 2

variable [Facts₀]

class Facts : Prop extends Facts₀ where

variable [Facts]
-- ==== Proof.PoolSpec.lean ====
/-
  Max pooling and sum pooling of masked token states, as functions of the two argument arrays.

  For a document n, an entity e, a feature d and a token l, the masked token state is
  mask[n, e, l] · doc[n, l, d]. The max-pooled value at (n, e, d) is the maximum over the 512 tokens l of the
  masked token states, started from the word 0xFF800000 (minus infinity); the sum-pooled value is their sum.
  Both are stated on the extended reals, index by index, over the literal shapes
  doc : [4, 512, 256], mask : [4, 64, 512], result : [4, 64, 256].
  No finiteness is used anywhere: a maximum and a sum do not depend on the order of their terms.
-/
import Idealize.ShloMosaic.PureOps.Ideal
import Idealize.ShloMosaic.Lib.ValueIdx

noncomputable section

namespace Cert.MeanMaxPool

open Idealize.ShloMosaic Idealize.ShloMosaic.ValueIdx

/-- The masked token state mask[n, e, l] · doc[n, l, d], as a function of the token l. -/
def masked (doc : FVec Ideal ⟨3, ![4, 512, 256]⟩ .f32) (mask : FVec Ideal ⟨3, ![4, 64, 512]⟩ .f32)
    (n : Fin 4) (e : Fin 64) (d : Fin 256) : Fin 512 → EReal :=
  fun l => mask (ix3 n e l) * doc (ix3 n l d)

/-- Max pooling over the tokens: at (n, e, d) the maximum over l of mask[n, e, l] · doc[n, l, d], from minus infinity. -/
def maxPool (doc : FVec Ideal ⟨3, ![4, 512, 256]⟩ .f32) (mask : FVec Ideal ⟨3, ![4, 64, 512]⟩ .f32) :
    FVec Ideal ⟨3, ![4, 64, 256]⟩ .f32 :=
  fun j => (Finset.univ : Finset (Fin 512)).fold max (Ideal.ofBits .f32 0xFF800000#32) (masked doc mask (j 0) (j 1) (j 2))

/-- Sum pooling over the tokens: at (n, e, d) the sum over l of mask[n, e, l] · doc[n, l, d]. -/
def sumPool (doc : FVec Ideal ⟨3, ![4, 512, 256]⟩ .f32) (mask : FVec Ideal ⟨3, ![4, 64, 512]⟩ .f32) :
    FVec Ideal ⟨3, ![4, 64, 256]⟩ .f32 :=
  fun j => ∑ l : Fin 512, masked doc mask (j 0) (j 1) (j 2) l

theorem maxPool_ix (doc : FVec Ideal ⟨3, ![4, 512, 256]⟩ .f32) (mask : FVec Ideal ⟨3, ![4, 64, 512]⟩ .f32)
    (n : Fin 4) (e : Fin 64) (d : Fin 256) :
    maxPool doc mask (ix3 n e d)
      = (Finset.univ : Finset (Fin 512)).fold max (Ideal.ofBits .f32 0xFF800000#32) (masked doc mask n e d) := rfl

theorem sumPool_ix (doc : FVec Ideal ⟨3, ![4, 512, 256]⟩ .f32) (mask : FVec Ideal ⟨3, ![4, 64, 512]⟩ .f32)
    (n : Fin 4) (e : Fin 64) (d : Fin 256) :
    sumPool doc mask (ix3 n e d) = ∑ l : Fin 512, masked doc mask n e d l := rfl

/-! ## The whole result -/

/-- The divisor of the mean: the entity's length where it is positive, else one, the same for every feature. -/
def safeLen (len : FVec Ideal ⟨2, ![4, 64]⟩ .f32) : FVec Ideal ⟨3, ![4, 64, 256]⟩ .f32 :=
  broadcastInDim ⟨3, ![4, 64, 256]⟩ (![0, 1, 2] : Fin 3 → Fin 3) (by decide)
    (broadcastInDim ⟨3, ![4, 64, 1]⟩ (![0, 1] : Fin 2 → Fin 3) (by decide)
      (select
        (cmpf (F := Ideal) .ogt len
          (broadcastInDim ⟨2, ![4, 64]⟩ (![] : Fin 0 → Fin 2) (by decide) (constant (F := Ideal) ⟨0, ![]⟩ .f32 0x00000000#32)))
        len
        (broadcastInDim ⟨2, ![4, 64]⟩ (![] : Fin 0 → Fin 2) (by decide) (constant (F := Ideal) ⟨0, ![]⟩ .f32 0x3F800000#32))))

/-- Mean-max pooling: features 0 .. 255 of entity (n, e) are the max-pooled values, features 256 .. 511 the
    sum-pooled values divided by the safe length. -/
def pooled (doc : FVec Ideal ⟨3, ![4, 512, 256]⟩ .f32) (mask : FVec Ideal ⟨3, ![4, 64, 512]⟩ .f32)
    (len : FVec Ideal ⟨2, ![4, 64]⟩ .f32) : FVec Ideal ⟨3, ![4, 64, 512]⟩ .f32 :=
  concatenate ⟨3, ![4, 64, 512]⟩ 2
    [⟨⟨3, ![4, 64, 256]⟩, maxPool doc mask⟩, ⟨⟨3, ![4, 64, 256]⟩, Host.divf (F := Ideal) (sumPool doc mask) (safeLen len)⟩]
    (by decide : Shape.Concatenates [(⟨3, ![4, 64, 256]⟩ : Shape), ⟨3, ![4, 64, 256]⟩] ⟨3, ![4, 64, 512]⟩ 2)

end Cert.MeanMaxPool

end
-- ==== Proof.PoolReference.lean ====
/-
  The reference's two reductions are the pooling functions.

  The reference broadcasts mask to [4, 64, 512, 1] then [4, 64, 512, 256] and doc to [4, 1, 512, 256] then
  [4, 64, 512, 256], multiplies, and reduces the product over axis 2 (the tokens), once by maximum from minus
  infinity and once by addition from zero. Read at (n, e, d): the product at (n, e, l, d) is
  mask[n, e, l] · doc[n, l, d], so the maximum is maxPool and the sum (zero plus the sum) is sumPool.
-/
import proofs.«143265_j84473416778475_1_alg».proof.Proof.Gen.ReferenceIdeal.Read
import proofs.«143265_j84473416778475_1_alg».proof.Proof.PoolSpec
import Idealize.ShloMosaic.PureOps.Ideal.Laws

noncomputable section

namespace Cert.MeanMaxPool.Reference

open Idealize.ShloMosaic Idealize.ShloMosaic.ValueIdx Cert.ReferenceIdeal Cert.ReferenceIdeal.Gen Cert.ReferenceIdeal.Read Cert.MeanMaxPool

/-- The product of the two broadcasts at (n, e, l, d) is mask[n, e, l] · doc[n, l, d]. -/
theorem product_apply (x0 : FVec Ideal ⟨3, ![4, 512, 256]⟩ .f32) (x1 : FVec Ideal ⟨3, ![4, 64, 512]⟩ .f32)
    (n : Fin 4) (e : Fin 64) (l : Fin 512) (d : Fin 256) :
    val_main_v4 (F := Ideal) x0 x1 (ix4 n e l d) = masked x0 x1 n e d l := by
  rw [val_main_v4_apply, val_main_v2_apply, val_main_v0_apply, val_main_v3_apply, val_main_v1_apply]
  have e1 : idx_main_v0 (idx_main_v2 (ix4 n e l d)) = ix3 n e l :=
    funext fun a => Fin.ext (by match a with | ⟨0, _⟩ => rfl | ⟨1, _⟩ => rfl | ⟨2, _⟩ => rfl)
  have e2 : idx_main_v1 (idx_main_v3 (ix4 n e l d)) = ix3 n l d :=
    funext fun a => Fin.ext (by match a with | ⟨0, _⟩ => rfl | ⟨1, _⟩ => rfl | ⟨2, _⟩ => rfl)
  rw [e1, e2]
  rfl

/-- The tokens' axis as a witness of the one-axis reduction [4, 64, 512, 256] → [4, 64, 256]. -/
theorem reduces_tokens : S4x64x512x256.Reduces [2] S4x64x256 := by decide

/-- The index over (n, e, d) with the token l inserted on axis 2 is (n, e, l, d). -/
theorem lift_tokens (n : Fin 4) (e : Fin 64) (d : Fin 256) (l : Fin 512) :
    reduces_tokens.lift (ix3 n e d) l = ix4 n e l d :=
  funext fun a => Fin.ext (by match a with | ⟨0, _⟩ => rfl | ⟨1, _⟩ => rfl | ⟨2, _⟩ => rfl | ⟨3, _⟩ => rfl)

/-- The reference's maximum over the tokens is maxPool. -/
theorem max_eq (x0 : FVec Ideal ⟨3, ![4, 512, 256]⟩ .f32) (x1 : FVec Ideal ⟨3, ![4, 64, 512]⟩ .f32) :
    val_main_v5 (F := Ideal) x0 x1 = maxPool x0 x1 := by
  funext j
  obtain ⟨n, e, d, rfl⟩ : ∃ (n : Fin 4) (e : Fin 64) (d : Fin 256), j = ix3 n e d := ⟨j 0, j 1, j 2, eq_ix3 j⟩
  unfold val_main_v5
  generalize hy : val_main_v4 (F := Ideal) x0 x1 = y
  refine (Host.reduce_eq_fold_single (FloatOps.maximumf (F := Ideal) (φ := .f32)) y (val_main_cst (F := Ideal))
    reducesTo_S4x64x512x256_S4x64x256_d2 reduces_tokens h_S_ (ix3 n e d)).trans ?_
  rw [maxPool_ix]
  show (Finset.univ : Finset (Fin 512)).fold max (Ideal.ofBits .f32 0xFF800000#32) _ = _
  refine Finset.fold_congr (fun (l : Fin 512) _ => ?_)
  subst hy
  exact (congrArg (val_main_v4 (F := Ideal) x0 x1) (lift_tokens n e d l)).trans (product_apply x0 x1 n e l d)

/-- The reference's sum over the tokens is sumPool (the initial value is zero). -/
theorem sum_eq (x0 : FVec Ideal ⟨3, ![4, 512, 256]⟩ .f32) (x1 : FVec Ideal ⟨3, ![4, 64, 512]⟩ .f32) :
    val_main_v10 (F := Ideal) x0 x1 = sumPool x0 x1 := by
  funext j
  obtain ⟨n, e, d, rfl⟩ : ∃ (n : Fin 4) (e : Fin 64) (d : Fin 256), j = ix3 n e d := ⟨j 0, j 1, j 2, eq_ix3 j⟩
  rw [val_main_v10_apply, sumPool_ix]
  show Ideal.ofBits .f32 0x00000000#32 + _ = _
  rw [Ideal.ofBits_zero_f32, zero_add]
  refine Finset.sum_congr rfl (fun (l : Fin 512) _ => ?_)
  have e1 : idx_main_v10 (ix3 n e d) l = ix4 n e l d :=
    funext fun a => Fin.ext (by match a with | ⟨0, _⟩ => rfl | ⟨1, _⟩ => rfl | ⟨2, _⟩ => rfl | ⟨3, _⟩ => rfl)
  exact (congrArg (val_main_v4 (F := Ideal) x0 x1) e1).trans (product_apply x0 x1 n e l d)

/-- The reference's result is the mean-max pooling of its arguments: its two reductions are maxPool and sumPool,
    and the rest of it (the safe length, the division, the joining of the two halves) is pooled's own text. -/
theorem result_eq (x0 : FVec Ideal ⟨3, ![4, 512, 256]⟩ .f32) (x1 : FVec Ideal ⟨3, ![4, 64, 512]⟩ .f32)
    (x2 : FVec Ideal ⟨2, ![4, 64]⟩ .f32) :
    val_main_v14 (F := Ideal) x0 x1 x2 = pooled x0 x1 x2 := by
  unfold val_main_v14 val_main_v13
  rw [max_eq, sum_eq]
  rfl

end Cert.MeanMaxPool.Reference

end
-- ==== Proof.PoolBody.lean ====
/-
  What the kernel body stores, read at an index.

  At one grid point the body holds a [1, 16, 512] block of mask and a [1, 512, 256] block of doc. It forms the
  tile tile[e, l, d] = maskblock[0, e, l] · docblock[0, l, d] (two layout casts and two broadcasts, then a
  pointwise product), reduces it over axis 1 (the tokens l) by maximum from minus infinity and by addition from
  zero, and stores the two [16, 256] results as [1, 16, 256] blocks. So the stored blocks at (0, e, d) are the
  maximum, respectively the sum, over l of maskblock[0, e, l] · docblock[0, l, d].
-/
import proofs.«143265_j84473416778475_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.MeanMaxPool.Body

open Idealize.ShloMosaic Idealize.ShloMosaic.ValueIdx Cert.KernelIdeal Cert.KernelIdeal.Gen

/-- The tile of products at (e, l, d) is maskblock[0, e, l] · docblock[0, l, d]. -/
theorem tile_apply (x0 : Vec Ideal S1x16x512 .f32) (x1 : Vec Ideal S1x512x256 .f32) (e : Fin 16) (l : Fin 512) (d : Fin 256) :
    k0_pay1 (F := Ideal) x0 x1 (ix3 e l d) = x0 (ix3 (0 : Fin 1) e l) * x1 (ix3 (0 : Fin 1) l d) := by
  unfold k0_pay1
  refine (mulf_apply _ _ _).trans (congrArg₂ (· * ·) ?_ ?_)
  · -- the mask block: [1,16,512] → [16,512] → [16,512,1] → broadcast along d
    refine (broadcastTo_apply _ broadcasts_S16x512x1_S16x512x256 (ix3 e l d) (ix3 e l (0 : Fin 1)) (fun a => ?_)).trans ?_
    · match a with
      | ⟨0, _⟩ => show e.val = if (16 : Nat) = 1 then 0 else e.val; rw [if_neg (by decide)]
      | ⟨1, _⟩ => show l.val = if (512 : Nat) = 1 then 0 else l.val; rw [if_neg (by decide)]
      | ⟨2, _⟩ => show 0 = if (1 : Nat) = 1 then 0 else d.val; rw [if_pos rfl]
    · refine (shapeCast_apply _ shapeCasts_S16x512_S16x512x1 (ix3 e l (0 : Fin 1)) (ix2 e l) ?_).trans ?_
      · rw [Shape.rowMajor_val_two, Shape.rowMajor_val_three]
        show e.val * 512 + l.val = (e.val * 512 + l.val) * 1 + 0
        omega
      · exact shapeCast_1ab_ab_apply x0 shapeCasts_S1x16x512_S16x512 e l
  · -- the doc block: [1,512,256] → [512,256] → [1,512,256] is the identity; then broadcast along e
    rw [shapeCast_shapeCast]
    refine broadcastTo_apply x1 broadcasts_S1x512x256_S16x512x256 (ix3 e l d) (ix3 (0 : Fin 1) l d) (fun a => ?_)
    match a with
    | ⟨0, _⟩ => show 0 = if (1 : Nat) = 1 then 0 else e.val; rw [if_pos rfl]
    | ⟨1, _⟩ => show l.val = if (512 : Nat) = 1 then 0 else l.val; rw [if_neg (by decide)]
    | ⟨2, _⟩ => show d.val = if (256 : Nat) = 1 then 0 else d.val; rw [if_neg (by decide)]

/-- The tokens' axis of the tile: the index over (e, d) with l inserted on axis 1 is (e, l, d). -/
theorem lift_tile (e : Fin 16) (d : Fin 256) (l : Fin 512) :
    (reduces_S16x512x256_S16x256).lift (ix2 e d) l = ix3 e l d :=
  funext fun a => Fin.ext (by match a with | ⟨0, _⟩ => rfl | ⟨1, _⟩ => rfl | ⟨2, _⟩ => rfl)

/-- The block stored for the maximum, at (0, e, d): the maximum over l of the products, from minus infinity. -/
theorem max_block_apply (x0 : Vec Ideal S1x16x512 .f32) (x1 : Vec Ideal S1x512x256 .f32) (e : Fin 16) (d : Fin 256) :
    k0_pay2 (F := Ideal) x0 x1 (ix3 (0 : Fin 1) e d)
      = (Finset.univ : Finset (Fin 512)).fold max (Ideal.ofBits .f32 0xFF800000#32)
          (fun l => x0 (ix3 (0 : Fin 1) e l) * x1 (ix3 (0 : Fin 1) l d)) := by
  unfold k0_pay2
  refine (shapeCast_ab_1ab_apply _ shapeCasts_S16x256_S1x16x256 (0 : Fin 1) e d).trans ?_
  refine (Ideal.multiReduction_maximumf_single (k0_pay1 (F := Ideal) x0 x1) 0xFF800000#32 reduces_S16x512x256_S16x256
    (.inl rfl) rfl (ix2 e d)).trans ?_
  show (Finset.univ : Finset (Fin 512)).fold max (Ideal.ofBits .f32 0xFF800000#32) _ = _
  refine Finset.fold_congr (fun (l : Fin 512) _ => ?_)
  exact (congrArg (k0_pay1 (F := Ideal) x0 x1) (lift_tile e d l)).trans (tile_apply x0 x1 e l d)

/-- The block stored for the sum, at (0, e, d): the sum over l of the products. -/
theorem sum_block_apply (x0 : Vec Ideal S1x16x512 .f32) (x1 : Vec Ideal S1x512x256 .f32) (e : Fin 16) (d : Fin 256) :
    k0_pay3 (F := Ideal) x0 x1 (ix3 (0 : Fin 1) e d)
      = ∑ l : Fin 512, x0 (ix3 (0 : Fin 1) e l) * x1 (ix3 (0 : Fin 1) l d) := by
  unfold k0_pay3
  refine (shapeCast_ab_1ab_apply _ shapeCasts_S16x256_S1x16x256 (0 : Fin 1) e d).trans ?_
  refine (Ideal.multiReduction_add_single (k0_pay1 (F := Ideal) x0 x1) 0x00000000#32 reduces_S16x512x256_S16x256
    (.inl rfl) rfl (ix2 e d)).trans ?_
  refine Finset.sum_congr rfl (fun (l : Fin 512) _ => ?_)
  exact (congrArg (k0_pay1 (F := Ideal) x0 x1) (lift_tile e d l)).trans (tile_apply x0 x1 e l d)

end Cert.MeanMaxPool.Body

end
-- ==== Proof.PoolBlocks.lean ====
/-
  From the blocks the grid points write back to the two whole output arrays.

  The grid has 4 × 4 points (n, q). At point (n, q) the kernel reads mask's block [n, 16q .. 16q+15, all tokens] and
  doc's block [n, all tokens, all features], and writes the blocks [n, 16q .. 16q+15, all features] of the two
  outputs. An element (0, e, d) of a written block therefore sits at (n, 16q + e, d) of its output array, and what
  the body stored there — the maximum, respectively the sum, over the tokens l of maskblock[0, e, l] · docblock[0, l, d] —
  is the maximum, respectively the sum, over l of mask[n, 16q + e, l] · doc[n, l, d]: the block of maxPool, respectively
  sumPool, of the two argument arrays. The sixteen blocks tile each output array (row r of document n lies in the
  block of point (n, r / 16)), so after the run the two arrays are maxPool and sumPool of the arguments.
-/
import proofs.«143265_j84473416778475_1_alg».proof.Proof.Gen.KernelIdeal.Frame
import proofs.«143265_j84473416778475_1_alg».proof.Proof.PoolBody
import proofs.«143265_j84473416778475_1_alg».proof.Proof.PoolSpec

set_option maxRecDepth 16384

noncomputable section

namespace Cert.MeanMaxPool.Blocks

open Idealize.ShloMosaic Idealize.ShloMosaic.TcCoe Idealize.ShloMosaic.ValueIdx Idealize.SL.Sem
open Cert.KernelIdeal Cert.KernelIdeal.Gen Cert.MeanMaxPool Cert.MeanMaxPool.Body
open Idealize.ShloMosaic.Pipeline (Dat)

variable (m : (ℓ : Loc nD τ sig) → Buf (Elt Ideal) ℓ)

theorem zeros3 : (![0, 0, 0] : Fin 3 → Nat) = fun _ => 0 := funext fun a => by fin_cases a <;> rfl

/-! ## A stored block against the pooling functions, over variables -/

/-- If the mask block's row (0, y₁, ·) is mask's row (i₀, i₁, ·) and the doc block's column (0, ·, y₂) is doc's
    column (i₀, ·, i₂), the stored maximum at y is maxPool at i. -/
theorem max_block_spec (doc : FVec Ideal ⟨3, ![4, 512, 256]⟩ .f32) (mask : FVec Ideal ⟨3, ![4, 64, 512]⟩ .f32)
    (x0 : Vec Ideal S1x16x512 .f32) (x1 : Vec Ideal S1x512x256 .f32) (y : S1x16x256.Idx) (i : S4x64x256.Idx)
    (h0 : ∀ l : Fin 512, x0 (ix3 (0 : Fin 1) (y 1) l) = mask (ix3 (i 0) (i 1) l))
    (h1 : ∀ l : Fin 512, x1 (ix3 (0 : Fin 1) l (y 2)) = doc (ix3 (i 0) l (i 2))) :
    k0_pay2 (F := Ideal) x0 x1 y = maxPool doc mask i := by
  obtain ⟨u, e, d, rfl⟩ : ∃ (u : Fin 1) (e : Fin 16) (d : Fin 256), y = ix3 u e d := ⟨y 0, y 1, y 2, eq_ix3 y⟩
  obtain ⟨n, e', d', rfl⟩ : ∃ (n : Fin 4) (e' : Fin 64) (d' : Fin 256), i = ix3 n e' d' := ⟨i 0, i 1, i 2, eq_ix3 i⟩
  obtain rfl : u = 0 := Subsingleton.elim _ _
  rw [max_block_apply, maxPool_ix]
  refine Finset.fold_congr (fun l _ => ?_)
  show x0 (ix3 (0 : Fin 1) e l) * x1 (ix3 (0 : Fin 1) l d) = mask (ix3 n e' l) * doc (ix3 n l d')
  rw [h0 l, h1 l]

/-- The same for the stored sum and sumPool. -/
theorem sum_block_spec (doc : FVec Ideal ⟨3, ![4, 512, 256]⟩ .f32) (mask : FVec Ideal ⟨3, ![4, 64, 512]⟩ .f32)
    (x0 : Vec Ideal S1x16x512 .f32) (x1 : Vec Ideal S1x512x256 .f32) (y : S1x16x256.Idx) (i : S4x64x256.Idx)
    (h0 : ∀ l : Fin 512, x0 (ix3 (0 : Fin 1) (y 1) l) = mask (ix3 (i 0) (i 1) l))
    (h1 : ∀ l : Fin 512, x1 (ix3 (0 : Fin 1) l (y 2)) = doc (ix3 (i 0) l (i 2))) :
    k0_pay3 (F := Ideal) x0 x1 y = sumPool doc mask i := by
  obtain ⟨u, e, d, rfl⟩ : ∃ (u : Fin 1) (e : Fin 16) (d : Fin 256), y = ix3 u e d := ⟨y 0, y 1, y 2, eq_ix3 y⟩
  obtain ⟨n, e', d', rfl⟩ : ∃ (n : Fin 4) (e' : Fin 64) (d' : Fin 256), i = ix3 n e' d' := ⟨i 0, i 1, i 2, eq_ix3 i⟩
  obtain rfl : u = 0 := Subsingleton.elim _ _
  rw [sum_block_apply, sumPool_ix]
  refine Finset.sum_congr rfl (fun l _ => ?_)
  show x0 (ix3 (0 : Fin 1) e l) * x1 (ix3 (0 : Fin 1) l d) = mask (ix3 n e' l) * doc (ix3 n l d')
  rw [h0 l, h1 l]

/-! ## The index maps over the grid -/

/-- At every point the mask window and both output windows sit at the same document and the same group of sixteen
    entities, the doc window at the same document; every other block index is zero; and the two used ones are below 4. -/
theorem index_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_3.index t (0 : Fin 3) = win0_2.index t (0 : Fin 3)
    ∧ win0_3.index t (1 : Fin 3) = win0_2.index t (1 : Fin 3)
    ∧ win0_3.index t (2 : Fin 3) = 0
    ∧ win0_2.index t (0 : Fin 3) ≤ 3
    ∧ win0_2.index t (1 : Fin 3) ≤ 3 :=
  (by decide +kernel : ∀ t : Fin grid0.N, _)

/-- Every (document, group of sixteen entities) is some point's. -/
theorem index_onto : ∀ (q0 : Fin 4) (q1 : Fin 4), ∃ t : Fin cfg0.N,
    win0_2.index t = ![q0.val, q1.val, 0] ∧ win0_3.index t = ![q0.val, q1.val, 0] :=
  (by decide +kernel : ∀ (q0 : Fin 4) (q1 : Fin 4), ∃ t : Fin grid0.N,
    win0_2.index t = ![q0.val, q1.val, 0] ∧ win0_3.index t = ![q0.val, q1.val, 0])

/-! ## What a point writes back -/

/-- Point t writes back, into the first output, block t of maxPool of the argument arrays. -/
theorem flushed_max (c : Dev nD) (t : Fin cfg0.N) :
    (dats m 0 c).flushed 2 t
      = ((cfg0.win 2).blk t).view.read (Elt Ideal) (maxPool (V m c main_arg0) (V m c main_arg1)) := by
  show (cfg0.win 2).cut (grid0.coords t) ((dats m 0 c).after 2 t) = _
  rw [after0_2]
  unfold out0_2
  rw [View.canon_unit_zero zeros3]
  simp only [View.ld_unit_zero (S := S1x16x512) zeros3, View.ld_unit_zero (S := S1x512x256) zeros3]
  obtain ⟨a0, a1, a2, b0, b1, b2, c2, d0, d1, d2, le0, le1⟩ := index_facts t
  funext j
  show k0_pay2 (F := Ideal) (iblk m c 0 t) (iblk m c 1 t) j
    = maxPool (V m c main_arg0) (V m c main_arg1) (((cfg0.win 2).blk t).view.emb j)
  have hj0 : (j 0).val < 1 := (j 0).isLt
  have hj1 : (j 1).val < 16 := (j 1).isLt
  have hj2 : (j 2).val < 256 := (j 2).isLt
  refine max_block_spec _ _ _ _ j _ (fun l => ?_) (fun l => ?_)
  · show V m c main_arg1 (((cfg0.win 0).blk t).view.emb (ix3 (0 : Fin 1) (j 1) l)) = V m c main_arg1 _
    refine congrArg (V m c main_arg1) (funext fun a => Fin.ext ?_)
    match a with
    | ⟨0, _⟩ => show win0_0.index t (0 : Fin 3) * 1 + 1 * 0 = win0_2.index t (0 : Fin 3) * 1 + 1 * (j 0).val; omega
    | ⟨1, _⟩ => show win0_0.index t (1 : Fin 3) * 16 + 1 * (j 1).val = win0_2.index t (1 : Fin 3) * 16 + 1 * (j 1).val; omega
    | ⟨2, _⟩ => show win0_0.index t (2 : Fin 3) * 512 + 1 * l.val = l.val; omega
  · show V m c main_arg0 (((cfg0.win 1).blk t).view.emb (ix3 (0 : Fin 1) l (j 2))) = V m c main_arg0 _
    refine congrArg (V m c main_arg0) (funext fun a => Fin.ext ?_)
    match a with
    | ⟨0, _⟩ => show win0_1.index t (0 : Fin 3) * 1 + 1 * 0 = win0_2.index t (0 : Fin 3) * 1 + 1 * (j 0).val; omega
    | ⟨1, _⟩ => show win0_1.index t (1 : Fin 3) * 512 + 1 * l.val = l.val; omega
    | ⟨2, _⟩ => show win0_1.index t (2 : Fin 3) * 256 + 1 * (j 2).val = win0_2.index t (2 : Fin 3) * 256 + 1 * (j 2).val; omega

/-- Point t writes back, into the second output, block t of sumPool of the argument arrays. -/
theorem flushed_sum (c : Dev nD) (t : Fin cfg0.N) :
    (dats m 0 c).flushed 3 t
      = ((cfg0.win 3).blk t).view.read (Elt Ideal) (sumPool (V m c main_arg0) (V m c main_arg1)) := by
  show (cfg0.win 3).cut (grid0.coords t) ((dats m 0 c).after 3 t) = _
  rw [after0_3]
  unfold out0_3
  rw [View.canon_unit_zero zeros3]
  simp only [View.ld_unit_zero (S := S1x16x512) zeros3, View.ld_unit_zero (S := S1x512x256) zeros3]
  obtain ⟨a0, a1, a2, b0, b1, b2, c2, d0, d1, d2, le0, le1⟩ := index_facts t
  funext j
  show k0_pay3 (F := Ideal) (iblk m c 0 t) (iblk m c 1 t) j
    = sumPool (V m c main_arg0) (V m c main_arg1) (((cfg0.win 3).blk t).view.emb j)
  have hj0 : (j 0).val < 1 := (j 0).isLt
  have hj1 : (j 1).val < 16 := (j 1).isLt
  have hj2 : (j 2).val < 256 := (j 2).isLt
  refine sum_block_spec _ _ _ _ j _ (fun l => ?_) (fun l => ?_)
  · show V m c main_arg1 (((cfg0.win 0).blk t).view.emb (ix3 (0 : Fin 1) (j 1) l)) = V m c main_arg1 _
    refine congrArg (V m c main_arg1) (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 16 + 1 * (j 1).val = win0_3.index t (1 : Fin 3) * 16 + 1 * (j 1).val; omega
    | ⟨2, _⟩ => show win0_0.index t (2 : Fin 3) * 512 + 1 * l.val = l.val; omega
  · show V m c main_arg0 (((cfg0.win 1).blk t).view.emb (ix3 (0 : Fin 1) l (j 2))) = V m c main_arg0 _
    refine congrArg (V m c main_arg0) (funext fun a => Fin.ext ?_)
    match a with
    | ⟨0, _⟩ => show win0_1.index t (0 : Fin 3) * 1 + 1 * 0 = win0_3.index t (0 : Fin 3) * 1 + 1 * (j 0).val; omega
    | ⟨1, _⟩ => show win0_1.index t (1 : Fin 3) * 512 + 1 * l.val = l.val; omega
    | ⟨2, _⟩ => show win0_1.index t (2 : Fin 3) * 256 + 1 * (j 2).val = win0_3.index t (2 : Fin 3) * 256 + 1 * (j 2).val; omega

/-! ## The blocks tile the arrays -/

/-- An index of the first output array is in point t's block iff each coordinate is in the block's range on its axis. -/
theorem mem_blk_max (t : Fin cfg0.N) (i : S4x64x256.Idx) :
    i ∈ ((cfg0.win 2).blk t).view.set ↔ ∀ a : Fin 3, win0_2.index t a * S1x16x256.size a ≤ (i a).val
      ∧ (i a).val < win0_2.index t a * S1x16x256.size a + S1x16x256.size a := by
  show i ∈ ((View.whole main_v0_0).slice (win0_2.rect t)).set ↔ _
  rw [View.set_slice_whole, Rect.mem_set_unit]
  exact Iff.rfl

/-- Row r of document n lies in the block of the point with block indices (n, r / 16, 0): the blocks tile the array. -/
theorem cover_max (i : S4x64x256.Idx) :
    ∃ t : Fin cfg0.N, (cfg0.win 2).flush t = true ∧ i ∈ ((cfg0.win 2).blk t).view.set := by
  have hi0 : (i 0).val < 4 := (i 0).isLt
  have hi1 : (i 1).val < 64 := (i 1).isLt
  have hi2 : (i 2).val < 256 := (i 2).isLt
  obtain ⟨t, ht2, ht3⟩ := index_onto ⟨(i 0).val, hi0⟩ ⟨(i 1).val / 16, by omega⟩
  have q0 : win0_2.index t (0 : Fin 3) = (i 0).val := congrFun ht2 0
  have q1 : win0_2.index t (1 : Fin 3) = (i 1).val / 16 := congrFun ht2 1
  have q2 : win0_2.index t (2 : Fin 3) = 0 := congrFun ht2 2
  refine ⟨t, flush0_2 t, ?_⟩
  rw [mem_blk_max]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 16 ≤ (i 1).val ∧ (i 1).val < win0_2.index t (1 : Fin 3) * 16 + 16; omega
  | ⟨2, _⟩ => show win0_2.index t (2 : Fin 3) * 256 ≤ (i 2).val ∧ (i 2).val < win0_2.index t (2 : Fin 3) * 256 + 256; omega

/-- After the run the first output array is maxPool of the argument arrays. -/
theorem final_max (c : Dev nD) :
    (dats m 0 c).arrAt 2 cfg0.N = maxPool (V m c main_arg0) (V m c main_arg1) :=
  (dats m 0 c).arrAt_eq_of_cover 2 _ (fun t _ => flushed_max m c t) cover_max

/-- An index of the second output array is in point t's block iff each coordinate is in the block's range on its axis. -/
theorem mem_blk_sum (t : Fin cfg0.N) (i : S4x64x256.Idx) :
    i ∈ ((cfg0.win 3).blk t).view.set ↔ ∀ a : Fin 3, win0_3.index t a * S1x16x256.size a ≤ (i a).val
      ∧ (i a).val < win0_3.index t a * S1x16x256.size a + S1x16x256.size a := by
  show i ∈ ((View.whole main_v0_1).slice (win0_3.rect t)).set ↔ _
  rw [View.set_slice_whole, Rect.mem_set_unit]
  exact Iff.rfl

/-- Row r of document n lies in the block of the point with block indices (n, r / 16, 0): the blocks tile the array. -/
theorem cover_sum (i : S4x64x256.Idx) :
    ∃ t : Fin cfg0.N, (cfg0.win 3).flush t = true ∧ i ∈ ((cfg0.win 3).blk t).view.set := by
  have hi0 : (i 0).val < 4 := (i 0).isLt
  have hi1 : (i 1).val < 64 := (i 1).isLt
  have hi2 : (i 2).val < 256 := (i 2).isLt
  obtain ⟨t, ht2, ht3⟩ := index_onto ⟨(i 0).val, hi0⟩ ⟨(i 1).val / 16, by omega⟩
  have q0 : win0_3.index t (0 : Fin 3) = (i 0).val := congrFun ht3 0
  have q1 : win0_3.index t (1 : Fin 3) = (i 1).val / 16 := congrFun ht3 1
  have q2 : win0_3.index t (2 : Fin 3) = 0 := congrFun ht3 2
  refine ⟨t, flush0_3 t, ?_⟩
  rw [mem_blk_sum]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 16 ≤ (i 1).val ∧ (i 1).val < win0_3.index t (1 : Fin 3) * 16 + 16; omega
  | ⟨2, _⟩ => show win0_3.index t (2 : Fin 3) * 256 ≤ (i 2).val ∧ (i 2).val < win0_3.index t (2 : Fin 3) * 256 + 256; omega

/-- After the run the second output array is sumPool of the argument arrays. -/
theorem final_sum (c : Dev nD) :
    (dats m 0 c).arrAt 3 cfg0.N = sumPool (V m c main_arg0) (V m c main_arg1) :=
  (dats m 0 c).arrAt_eq_of_cover 3 _ (fun t _ => flushed_sum m c t) cover_sum

end Cert.MeanMaxPool.Blocks

end
-- ==== Proof.PoolKernel.lean ====
/-
  The kernel's program, read to its result.

  After the region the first output array is maxPool and the second sumPool of the argument arrays. The host
  lines after it compute the safe length from the lengths (the length where it is positive, else one), broadcast
  it along the features, divide the second array by it and join the two arrays along the features: the result is
  pooled of the three argument arrays, and the arguments end unchanged.
-/
import proofs.«143265_j84473416778475_1_alg».proof.Proof.Gen.KernelIdeal.Frame
import proofs.«143265_j84473416778475_1_alg».proof.Proof.PoolBlocks
import proofs.«143265_j84473416778475_1_alg».proof.Proof.PoolSpec
import Idealize.ShloMosaic.Lib.StableHlo.Run

noncomputable section

namespace Cert.MeanMaxPool.Kernel

open Idealize.ShloMosaic Idealize.ShloMosaic.TcCoe Idealize.SL.Sem Idealize.ShloMosaic.StableHlo
open Cert.KernelIdeal Cert.KernelIdeal.Gen Cert.MeanMaxPool Cert.MeanMaxPool.Blocks

variable (m : (ℓ : Loc nD τ sig) → Buf (Elt Ideal) ℓ) (ρ : Dev nD → PrngReg)

/-- What the host lines after the region leave in the result buffer. -/
theorem tail_eq (c : Dev nD) :
    Pipeline.afterTail₀ cfgs (dats m) 0 (V0 m) [hostOps1, hostOps1_1, hostOps1_2] c main_v8
      = pooled (m ((c : Thread nD τ).loc main_arg0)) (m ((c : Thread nD τ).loc main_arg1))
          (m ((c : Thread nD τ).loc main_arg2)) := by
  unfold Pipeline.afterTail₀
  simp only [hostOps1, hostOps1_1, hostOps1_2, List.flatten_cons, List.flatten_nil, List.append_nil, List.cons_append,
    List.nil_append]
  after_results
  have h2 : Pipeline.withArrays (cfgs 0).spec c (V0 m c) (fun w => (dats m 0 c).arrAt w (cfgs 0).N) (Proc.devRef .tc main_v0_0)
      = maxPool (m ((c : Thread nD τ).loc main_arg0)) (m ((c : Thread nD τ).loc main_arg1)) :=
    (Pipeline.withArrays_arr spec0 launch0.win.arr_inj c _ _ 2).trans (final_max m c)
  have h3 : Pipeline.withArrays (cfgs 0).spec c (V0 m c) (fun w => (dats m 0 c).arrAt w (cfgs 0).N) (Proc.devRef .tc main_v0_1)
      = sumPool (m ((c : Thread nD τ).loc main_arg0)) (m ((c : Thread nD τ).loc main_arg1)) :=
    (Pipeline.withArrays_arr spec0 launch0.win.arr_inj c _ _ 3).trans (final_sum m c)
  have h4 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by decide)).trans (V_main_arg2 m c)
  rw [h2, h3, h4]
  rfl

/-- Every weakly fair execution of the kernel's program terminates with the result buffer at pooled of the
    argument arrays and the argument arrays unchanged. -/
theorem run : θ_run defs (onTc (τ := τ) (main (F := Ideal))) ⟨m, fun _ => 0, ρ⟩ fun r => ∀ c : Dev nD,
      r.2.mem ((c.tc : Thread nD τ).loc main_v8)
        = pooled (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v8 (Pipeline.mem_restRefs_of main_v8 (by decide) (by decide))).trans (tail_eq m c),
       ((h c).1 1).trans (((dats m 0 c).arrAt_in 1 rfl _).trans ((A_eq m c 1).trans (V_main_arg0 m c))),
       ((h c).1 0).trans (((dats m 0 c).arrAt_in 0 rfl _).trans ((A_eq m c 0).trans (V_main_arg1 m c))),
       ((h c).2 main_arg2 (Pipeline.mem_restRefs_of main_arg2 (by decide) (by decide))).trans (W_main_arg2 m (dats m) c)⟩)
    (run_main m ρ)

end Cert.MeanMaxPool.Kernel

end
-- ==== Proof.lean ====
/-
  Mean-max pooling of masked token states: the tiled kernel against the plain reference.

  Inputs: doc : [4, 512, 256] (token states per document), mask : [4, 64, 512] (entity-by-token weights per document),
  len : [4, 64] (entity lengths). For document n, entity e and feature d let p(l) = mask[n, e, l] · doc[n, l, d] over the
  512 tokens l. The result, of shape [4, 64, 512], holds in features 0 .. 255 the maximum of p over the tokens (from
  minus infinity) and in features 256 .. 511 the sum of p over the tokens divided by the safe length (len[n, e] where
  it is positive, else 1).

  The kernel computes the two reductions on a 4 × 4 grid, sixteen entities of one document per point, and leaves
  the division and the joining of the two halves to host lines after the region; the reference forms the whole
  [4, 64, 512, 256] product and reduces it over the tokens' axis. On the extended reals the two are the same
  function of the arguments: the same products enter the same maximum and the same sum (neither depends on the
  order of its terms, so no finiteness is needed), and the lines that follow are the same on both sides.

  Modules: PoolSpec (the function), PoolReference (the reference's stages are it), PoolBody (the kernel body's stored
  blocks read at an index), PoolBlocks (the blocks are the blocks of the function, and tile the arrays), PoolKernel (the
  host lines after the region, and the kernel program's run). The three frames are the generated ones (the
  reference's its generated run with the result dropped); the idealization rewrote nothing, so that conjunct is trivial.
-/
import proofs.«143265_j84473416778475_1_alg».proof.Defs
import proofs.«143265_j84473416778475_1_alg».proof.Proof.Gen.Kernel
import proofs.«143265_j84473416778475_1_alg».proof.Proof.Gen.Kernel.Skeleton
import proofs.«143265_j84473416778475_1_alg».proof.Proof.Gen.Kernel.Launch
import proofs.«143265_j84473416778475_1_alg».proof.Proof.Gen.Kernel.Points
import proofs.«143265_j84473416778475_1_alg».proof.Proof.Gen.Kernel.Frame
import proofs.«143265_j84473416778475_1_alg».proof.Proof.Gen.KernelIdeal
import proofs.«143265_j84473416778475_1_alg».proof.Proof.Gen.KernelIdeal.Skeleton
import proofs.«143265_j84473416778475_1_alg».proof.Proof.Gen.KernelIdeal.Launch
import proofs.«143265_j84473416778475_1_alg».proof.Proof.Gen.KernelIdeal.Points
import proofs.«143265_j84473416778475_1_alg».proof.Proof.Gen.KernelIdeal.Frame
import proofs.«143265_j84473416778475_1_alg».proof.Proof.Gen.ReferenceIdeal
import proofs.«143265_j84473416778475_1_alg».proof.Proof.Gen.Pre_finite_inputs
import proofs.«143265_j84473416778475_1_alg».proof.Proof.Gen.ReferenceIdeal.Run
import proofs.«143265_j84473416778475_1_alg».proof.Proof.Gen.ReferenceIdeal.Read
import proofs.«143265_j84473416778475_1_alg».proof.Proof.PoolSpec
import proofs.«143265_j84473416778475_1_alg».proof.Proof.PoolReference
import proofs.«143265_j84473416778475_1_alg».proof.Proof.PoolKernel
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference is a host program: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals both programs end with the mean-max pooling of the (agreeing) arguments. -/
theorem algebraic : Cert.algebraic_KernelIdeal_ReferenceIdeal := by
  intro m ρ m' ρ' _ hagree
  refine ⟨fun c => Cert.MeanMaxPool.pooled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.MeanMaxPool.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.MeanMaxPool.Reference.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
